-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S8192x256 .f32) (main_arg1 : FVec F S8192x8192 .f32) (main_arg2 : FVec F S8192x8192 .f32) (main_arg3 : FVec F S256x128 .f32) (main_arg4 : FVec F S8192 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S8192 : Shape := ⟨1, ![8192]⟩
abbrev S8192x128 : Shape := ⟨2, ![8192, 128]⟩
abbrev S1024x256 : Shape := ⟨2, ![1024, 256]⟩
abbrev S1024x128 : Shape := ⟨2, ![1024, 128]⟩
abbrev S8192x1 : Shape := ⟨2, ![8192, 1]⟩
abbrev S2048x1024 : Shape := ⟨2, ![2048, 1024]⟩
abbrev S2048x1 : Shape := ⟨2, ![2048, 1]⟩
abbrev S2048x128 : Shape := ⟨2, ![2048, 128]⟩

abbrev nBuf : Space → Nat
  | .hbm => 9
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S8192, .f32⟩
  | .hbm, ⟨5, _⟩ => ⟨S8192x128, .f32⟩
  | .hbm, ⟨6, _⟩ => ⟨S8192x1, .f32⟩
  | .hbm, ⟨7, _⟩ => ⟨S8192x128, .f32⟩
  | .hbm, ⟨8, _⟩ => ⟨S8192x128, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S1024x128, .f32⟩
  | .local _ .vmem, ⟨4, _⟩ => ⟨S1024x128, .f32⟩
  | .local _ .vmem, ⟨5, _⟩ => ⟨S2048x1024, .f32⟩
  | .local _ .vmem, ⟨6, _⟩ => ⟨S2048x1024, .f32⟩
  | .local _ .vmem, ⟨7, _⟩ => ⟨S1024x128, .f32⟩
  | .local _ .vmem, ⟨8, _⟩ => ⟨S1024x128, .f32⟩
  | .local _ .vmem, ⟨9, _⟩ => ⟨S2048x1, .f32⟩
  | .local _ .vmem, ⟨10, _⟩ => ⟨S2048x1, .f32⟩
  | .local _ .vmem, ⟨11, _⟩ => ⟨S2048x128, .f32⟩
  | .local _ .vmem, ⟨12, _⟩ => ⟨S2048x128, .f32⟩
  | .local _ .vmem, ⟨13, _⟩ => ⟨S2048x1024, .f32⟩
  | .local _ .vmem, ⟨14, _⟩ => ⟨S2048x1024, .f32⟩
  | .local _ .vmem, ⟨15, _⟩ => ⟨S1024x128, .f32⟩
  | .local _ .vmem, ⟨16, _⟩ => ⟨S1024x128, .f32⟩
  | .local _ .vmem, ⟨17, _⟩ => ⟨S2048x128, .f32⟩
  | .local _ .vmem, ⟨18, _⟩ => ⟨S2048x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1024x128_S1024x128_0_0 : ∀ a, (![0, 0] : Fin 2 → Nat) a + S1024x128.size a ≤ S1024x128.size a
  h_S1024x128 : 0 < S1024x128.numel
  shapeCasts_S8192_S8192x1 : S8192.ShapeCasts S8192x1
  inb_S2048x128_S2048x128_0_0 : ∀ a, (![0, 0] : Fin 2 → Nat) a + S2048x128.size a ≤ S2048x128.size a
  h_S2048x128 : 0 < S2048x128.numel
  inb_S2048x1024_S2048x1024_0_0 : ∀ a, (![0, 0] : Fin 2 → Nat) a + S2048x1024.size a ≤ S2048x1024.size a
  h_S2048x1024 : 0 < S2048x1024.numel
  shapeCasts_S1024x128_S1024x128 : S1024x128.ShapeCasts S1024x128
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x128 : S2048x1.Broadcasts S2048x128
  dot_S1024x256_S256x128_S1024x128_1_0_0_1_n_n_wf : DotDims.WF S1024x256 S256x128 S1024x128 [1] [0] [0] [1] [] []
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x8192.size a
  hwx1_0 : ∀ i : grid1.Coords, EltTy.bits .f32 = 32 ∨ (Rect.block (s := S8192x8192) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S8192x1.size a
  hwx1_2 : ∀ i : grid1.Coords, EltTy.bits .f32 = 32 ∨ (Rect.block (s := S8192x1) S2048x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S8192x128.size a
  hwx1_3 : ∀ i : grid1.Coords, EltTy.bits .f32 = 32 ∨ (Rect.block (s := S8192x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x8192.size a
  hwx2_0 : ∀ i : grid2.Coords, EltTy.bits .f32 = 32 ∨ (Rect.block (s := S8192x8192) S2048x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .f32 = 32 ∨ (Rect.block (s := S8192x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S8192x128.size a
  hwx2_2 : ∀ i : grid2.Coords, EltTy.bits .f32 = 32 ∨ (Rect.block (s := S8192x128) S2048x128.size (cc2_transform_2 i) (hinb2_2 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S2048x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S8192 : Shape := ⟨1, ![8192]⟩
abbrev S8192x128 : Shape := ⟨2, ![8192, 128]⟩
abbrev S8192x1 : Shape := ⟨2, ![8192, 1]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S8192, .f32⟩
  | .hbm, ⟨5, _⟩ => ⟨S8192x128, .f32⟩
  | .hbm, ⟨6, _⟩ => ⟨S8192x128, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Spec.lean ====
/-
  The function both programs compute, over the extended reals.

  With features F [8192, 256], weights W [256, 128], the two wavelet matrices A, A' [8192, 8192] and the filter
  column f [8192, 1], the result is A · (diag(f) · (A' · (F · W))): entry (r, q) of a matrix product is the sum over
  the contraction axis of the products of the operands' entries, and scaling the rows multiplies entry (r, q) by
  f (r, 0).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with R rows and C columns, indexed as the arrays are. -/
abbrev Mat (R C : Nat) : Type := (⟨2, ![R, C]⟩ : Shape).Idx → EReal

/-- The matrix product: entry (r, q) is the sum over k of a (r, k) · b (k, q). -/
def mm {R K C : Nat} (a : Mat R K) (b : Mat K C) : Mat R C :=
  fun i => ∑ k : Fin K, a (ix2 (i 0) k) * b (ix2 k (i 1))

/-- Row scaling by a column: entry (r, q) is x (r, q) · f (r, 0). -/
def scaleRows {R C : Nat} (x : Mat R C) (f : Mat R 1) : Mat R C :=
  fun i => x i * f (ix2 (i 0) 0)

/-- A vector [R] as the column [R, 1]. -/
def col {R : Nat} (f : (⟨1, ![R]⟩ : Shape).Idx → EReal) : Mat R 1 :=
  fun i => f (ix1 (i 0))

/-- The whole computation: wav · (diag(filt) · (winv · (feat · w))). -/
def result (feat : Mat 8192 256) (wav winv : Mat 8192 8192) (w : Mat 256 128)
    (filt : (⟨1, ![8192]⟩ : Shape).Idx → EReal) : Mat 8192 128 :=
  mm wav (scaleRows (mm winv (mm feat w)) (col filt))

theorem col_apply {R : Nat} (f : (⟨1, ![R]⟩ : Shape).Idx → EReal) (r : Fin R) (z : Fin 1) :
    col f (ix2 r z) = f (ix1 r) := rfl

theorem mm_apply {R K C : Nat} (a : Mat R K) (b : Mat K C) (r : Fin R) (q : Fin C) :
    mm a b (ix2 r q) = ∑ k : Fin K, a (ix2 r k) * b (ix2 k q) := rfl

theorem scaleRows_apply {R C : Nat} (x : Mat R C) (f : Mat R 1) (r : Fin R) (q : Fin C) :
    scaleRows x f (ix2 r q) = x (ix2 r q) * f (ix2 r 0) := rfl

end Cert.Spec

end
-- ==== Proof.LibPlainDot.lean ====
/-
  A plain matrix product [M, K] × [K, N] read at an index over the extended reals.

  With the contraction on the left operand's axis 1 and the right operand's axis 0 and no batch axis, the product's
  entry (p, q) is the sum over k of lhs (p, k) · rhs (k, q): for a matrix unit's product into a zero accumulator
  (matmul_zero_apply) and for the host's dot_general (dotGeneral_apply) alike, whatever precision or schedule key
  they carry. Both follow from re-indexing the sum over the one-axis contraction shape by its coordinate (contr_sum).
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat}

/-- The dimension numbers of the plain product. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF ⟨2, ![M, K]⟩ ⟨2, ![K, N]⟩ ⟨2, ![M, N]⟩ [1] [0] [0] [1] [] [])

/-- The left operand's row coordinate is the result's row, whatever the contraction index. -/
theorem lhs_row (j : (⟨2, ![M, N]⟩ : Shape).Idx) (r : (plainDims M K N wf).contr.Idx) :
    ((plainDims M K N wf).lhsIdx j r 0).val = (j 0).val := by
  unfold DotDims.lhsIdx
  rw [dif_neg (show ¬ (0 : Fin 2) ∈ (plainDims M K N wf).lhsBatch from List.not_mem_nil),
    dif_pos (show (0 : Fin 2) ∈ (plainDims M K N wf).lhsNonContracting from List.mem_singleton.mpr rfl)]
  rfl

/-- The right operand's column coordinate is the result's column, whatever the contraction index. -/
theorem rhs_col (j : (⟨2, ![M, N]⟩ : Shape).Idx) (r : (plainDims M K N wf).contr.Idx) :
    ((plainDims M K N wf).rhsIdx j r 1).val = (j 1).val := by
  unfold DotDims.rhsIdx
  rw [dif_neg (show ¬ (1 : Fin 2) ∈ (plainDims M K N wf).rhsBatch from List.not_mem_nil),
    dif_pos (show (1 : Fin 2) ∈ (plainDims M K N wf).rhsNonContracting from List.mem_singleton.mpr rfl)]
  rfl

/-- The sum over the contraction shape is the sum over k of lhs (p, k) · rhs (k, q). -/
theorem contr_sum (lhs : (⟨2, ![M, K]⟩ : Shape).Idx → EReal) (rhs : (⟨2, ![K, N]⟩ : Shape).Idx → EReal) (p : Fin M) (q : Fin N) :
    ∑ k : (plainDims M K N wf).contr.Idx, lhs ((plainDims M K N wf).lhsIdx (ix2 p q) k) * rhs ((plainDims M K N wf).rhsIdx (ix2 p q) k)
      = ∑ k : Fin K, lhs (ix2 p k) * rhs (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ => exact rhs_col wf _ _)
  rw [el, er]

/-- A MATRIX UNIT'S PRODUCT INTO A ZERO ACCUMULATOR, read at (p, q), for ANY dimension numbers of the plain form. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![M, K]⟩ φ₁) (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the plain form. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.PlainDot

end
-- ==== Proof.Region0.lean ====
/-
  The first product, computed tile by tile.

  The array feat · w [8192, 128] is written in 8 blocks of 1024 rows: at point t the kernel stages rows 1024 t … 1024 t + 1023
  of feat (all 256 columns) and the whole of w, multiplies them into a zero accumulator and writes the [1024, 128] product
  back as rows 1024 t … 1024 t + 1023 of the result. Over the extended reals the rounding of the operands is the identity
  and the product into zero is the plain sum over the contraction axis, so entry (p, q) of the block at point t is
  ∑ j, feat (1024 t + p, j) · w (j, q) — entry (1024 t + p, q) of feat · w. Row r lies in the block of point r / 1024, so the
  8 blocks cover the array and it ends holding feat · w.
-/
import proofs.«170778_j55422257988357_2_alg».proof.Proof.Gen.KernelIdeal.Frame
import proofs.«170778_j55422257988357_2_alg».proof.Proof.Spec
import proofs.«170778_j55422257988357_2_alg».proof.Proof.LibPlainDot
import Idealize.ShloMosaic.Lib.Pipeline.Value
import Idealize.ShloMosaic.Lib.ValueIdx

noncomputable section

open scoped BigOperators

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

theorem hz : (![0, 0] : Fin 2 → Nat) = fun _ => 0 := funext fun a => by fin_cases a <;> rfl

/-- The body's product at (p, q): the operands' rounding is the identity and the product into the zero accumulator is
    the sum over the 256 contraction positions. -/
theorem pay_apply (x0 : Vec Ideal S1024x256 .f32) (x1 : Vec Ideal S256x128 .f32) (p : Fin 1024) (q : Fin 128) :
    k0_pay1 (F := Ideal) x0 x1 (ix2 p q) = ∑ j : Fin 256, x0 (ix2 p j) * x1 (ix2 j q) := by
  unfold k0_pay1
  exact Cert.PlainDot.matmul_zero_apply dot_S1024x256_S256x128_S1024x128_1_0_0_1_n_n rfl rfl rfl rfl rfl rfl none _ _ p q

variable (V : (c : Dev nD) → (b : Ref sig .tc) → Buf (Elt Ideal) ((c : Thread nD τ).loc b)) (c : Dev nD)

/-- The printed index maps over the 8 points: the features' and the result's block index is (t, 0), the weights' (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 1024 t + p of the features. -/
theorem feat_blk (t : Fin cfg0.N) (p : Fin 1024) (j : Fin 256) (r : Fin 8192) (hr : r.val = 1024 * t.val + p.val) :
    (iblk0 V c 0 t : Vec Ideal S1024x256 .f32) (ix2 p j) = (V c main_arg0 : S8192x256.Idx → EReal) (ix2 r j) := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 1024 + 1 * p.val = r.val; rw [e0, hr]; omega
  | ⟨1, _⟩ => show win0_0.index t (1 : Fin 2) * 256 + 1 * j.val = j.val; rw [e1]; omega

/-- The weights' one block is the weights. -/
theorem w_blk (t : Fin cfg0.N) (j : Fin 256) (q : Fin 128) :
    (iblk0 V c 1 t : Vec Ideal S256x128 .f32) (ix2 j q) = (V c main_arg3 : S256x128.Idx → EReal) (ix2 j q) := by
  obtain ⟨-, -, e0, e1, -⟩ := idx_facts t
  unfold iblk0
  rw [View.read_apply]
  show V c main_arg3 _ = V c main_arg3 _
  refine congrArg (V c main_arg3) ?_
  funext a
  apply Fin.ext
  match a with
  | ⟨0, _⟩ => show win0_1.index t (0 : Fin 2) * 256 + 1 * j.val = j.val; rw [e0]; omega
  | ⟨1, _⟩ => show win0_1.index t (1 : Fin 2) * 128 + 1 * q.val = q.val; rw [e1]; omega

/-- An element of the result's block at point t sits at row 1024 t + p, column q of the array. -/
theorem out_emb (t : Fin cfg0.N) (p : Fin 1024) (q : Fin 128) (r : Fin 8192) (hr : r.val = 1024 * t.val + p.val) :
    ((cfg0.win 2).blk t).view.emb (ix2 p q) = (ix2 r q : S8192x128.Idx) := by
  obtain ⟨-, -, -, -, e0, e1⟩ := idx_facts t
  funext a
  apply Fin.ext
  match a with
  | ⟨0, _⟩ => show win0_2.index t (0 : Fin 2) * 1024 + 1 * p.val = r.val; rw [e0, hr]; omega
  | ⟨1, _⟩ => show win0_2.index t (1 : Fin 2) * 128 + 1 * q.val = q.val; rw [e1]; omega

/-- What point t writes back is block t of feat · w. -/
theorem flushed_eq (t : Fin cfg0.N) :
    (dat0 V c).flushed 2 t = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero hz]
  simp only [View.ld_unit_zero (S := S1024x256) hz, View.ld_unit_zero (S := S256x128) hz]
  funext y
  obtain ⟨p, q, rfl⟩ : ∃ (p : Fin 1024) (q : Fin 128), y = ix2 p q := ⟨y 0, y 1, eq_ix2 y⟩
  have hr : 1024 * t.val + p.val < 8192 := by
    have h8 : cfg0.N = 8 := N_0
    have := t.isLt; have := p.isLt; omega
  show k0_pay1 (F := Ideal) (iblk0 V c 0 t) (iblk0 V c 1 t) (ix2 p q)
    = Cert.Spec.mm (V c main_arg0) (V c main_arg3) (((cfg0.win 2).blk t).view.emb (ix2 p q))
  rw [out_emb t p q ⟨1024 * t.val + p.val, hr⟩ rfl]
  refine (pay_apply (iblk0 V c 0 t) (iblk0 V c 1 t) p q).trans ?_
  refine Eq.trans ?_ (Cert.Spec.mm_apply (R := 8192) (K := 256) (C := 128) (V c main_arg0) (V c main_arg3) ⟨1024 * t.val + p.val, hr⟩ q).symm
  exact Finset.sum_congr rfl fun j _ => by
    rw [feat_blk V c t p j ⟨1024 * t.val + p.val, hr⟩ rfl, w_blk V c t j q]

/-- An index of the array is in point t's block iff each coordinate is in the block's range on its axis. -/
theorem mem_blk (t : Fin cfg0.N) (i : S8192x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v0).slice (win0_2.rect t)).set ↔ _
  rw [View.set_slice_whole, Rect.mem_set_unit]
  exact Iff.rfl

/-- Row r lies in the block of point r / 1024: the 8 blocks cover the array. -/
theorem cover (i : S8192x128.Idx) :
    ∃ t : Fin cfg0.N, (cfg0.win 2).flush t = true ∧ i ∈ ((cfg0.win 2).blk t).view.set := by
  have hi0 : (i 0).val < 8192 := (i 0).isLt
  have hi1 : (i 1).val < 128 := (i 1).isLt
  have h8 : cfg0.N = 8 := N_0
  obtain ⟨t, ht⟩ : ∃ t : Fin cfg0.N, t.val = (i 0).val / 1024 := ⟨⟨(i 0).val / 1024, by omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 1024 ≤ (i 0).val ∧ (i 0).val < win0_2.index t (0 : Fin 2) * 1024 + 1024
    rw [e0, ht]; omega
  | ⟨1, _⟩ =>
    show win0_2.index t (1 : Fin 2) * 128 ≤ (i 1).val ∧ (i 1).val < win0_2.index t (1 : Fin 2) * 128 + 128
    rw [e1]; omega

/-- After the region the result array holds feat · w. -/
theorem final : (dat0 V c).arrAt 2 cfg0.N = Cert.Spec.mm (V c main_arg0) (V c main_arg3) :=
  (dat0 V c).arrAt_eq_of_cover 2 _ (fun t _ => flushed_eq V c t) cover

end Cert.KernelIdeal.Region0

end
-- ==== Proof.Region1Cases.lean ====
/-
  What one grid point of the second product leaves in its output block.

  The output block [2048, 128] of row tile i is visited at the eight contraction tiles k = 0 … 7 in turn. At k = 0
  the block is first set to zero; at every k the product of the point's [2048, 1024] block of the left matrix with
  its [1024, 128] block of the right matrix (into a zero accumulator) is added to what the block holds; at k = 7 the
  sum is then multiplied, row by row, by the point's [2048, 1] block of the filter column.
-/
import proofs.«170778_j55422257988357_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen

variable {F : FTy → Type} [FloatOps F]

theorem hz : (![0, 0] : Fin 2 → Nat) = fun _ => 0 := funext fun a => by fin_cases a <;> rfl

/-- The zero block the first contraction tile starts from. -/
abbrev zero : Vec F S2048x128 .f32 := broadcast S2048x128 (Scalar.ofBits .f32 0x00000000#32)

/-- One contraction tile's contribution: the product of the two blocks into a zero accumulator. -/
def tile (x0 : Vec F S2048x1024 .f32) (x1 : Vec F S1024x128 .f32) : FVec F S2048x128 .f32 :=
  matmul dot_S2048x1024_S1024x128_S2048x128_1_0_0_1_n_n none (truncf .bf16 x0 bitsLt_bf16_f32)
    (truncf .bf16 x1 bitsLt_bf16_f32) (constant S2048x128 .f32 0x00000000#32)

/-- A middle tile adds its contribution to what the block holds. -/
theorem out_B (c : Dev nD) (i : grid1.Coords) (a2 : Memref sig .tc .vmem S2048x1024 .f32) (h2 : a2.IsWhole)
    (a3 : Memref sig .tc .vmem S1024x128 .f32) (h3 : a3.IsWhole) (a4 : Memref sig .tc .vmem S2048x1 .f32) (h4 : a4.IsWhole)
    (a5 : Memref sig .tc .vmem S2048x128 .f32) (h5 : a5.IsWhole) (hc0 : ¬cond1_0 i) (hc1 : ¬cond1_1 i)
    (x0 : Vec F S2048x1024 .f32) (x1 : Vec F S1024x128 .f32) (x2 : Vec F S2048x1 .f32) (xo : Vec F S2048x128 .f32) :
    out1_B_3 c i a2 h2 a3 h3 a4 h4 a5 h5 hc0 hc1 x0 x1 x2 xo = addf xo (tile x0 x1) := by
  unfold out1_B_3
  rw [View.read_writes_eq_canon _ _ _ (cover1_B_3 c i a2 h2 a3 h3 a4 h4 a5 h5 hc0 hc1 x0 x1 x2 xo)]
  unfold kernelRun1_B
  dsimp only
  rw [View.canon_unit_zero hz]
  unfold k1_pay2 tile
  simp only [View.readAt_eq_ld, h2.read_unread, h3.read_unread, h5.read_unread, View.ld_unit_zero (S := S2048x1024) hz,
    View.ld_unit_zero (S := S1024x128) hz, View.ld_unit_zero (S := S2048x128) hz, shapeCast_self]

/-- The first tile sets the block to zero and adds its contribution. -/
theorem out_A (c : Dev nD) (i : grid1.Coords) (a2 : Memref sig .tc .vmem S2048x1024 .f32) (h2 : a2.IsWhole)
    (a3 : Memref sig .tc .vmem S1024x128 .f32) (h3 : a3.IsWhole) (a4 : Memref sig .tc .vmem S2048x1 .f32) (h4 : a4.IsWhole)
    (a5 : Memref sig .tc .vmem S2048x128 .f32) (h5 : a5.IsWhole) (hc0 : cond1_0 i) (hc1 : ¬cond1_1 i)
    (x0 : Vec F S2048x1024 .f32) (x1 : Vec F S1024x128 .f32) (x2 : Vec F S2048x1 .f32) :
    out1_A_3 c i a2 h2 a3 h3 a4 h4 a5 h5 hc0 hc1 x0 x1 x2 = addf zero (tile x0 x1) := by
  unfold out1_A_3
  rw [View.read_writes_eq_canon _ _ _ (cover1_A_3 c i a2 h2 a3 h3 a4 h4 a5 h5 hc0 hc1 x0 x1 x2)]
  unfold kernelRun1_A
  dsimp only
  sl_unfold_words
  rw [View.canon_cons_unit_zero (S := S2048x128) hz, View.readCov_unit_zero (S := S2048x128) _ hz]
  unfold k1_pay2 k1_pay1 tile
  simp only [View.readAt_eq_ld, h2.read_unread, h3.read_unread, View.ld_unit_zero (S := S2048x1024) hz,
    View.ld_unit_zero (S := S1024x128) hz, View.ld_unit_zero (S := S2048x128) hz, shapeCast_self]

/-- The last tile adds its contribution and scales the rows by the filter column's block. -/
theorem out_C (c : Dev nD) (i : grid1.Coords) (a2 : Memref sig .tc .vmem S2048x1024 .f32) (h2 : a2.IsWhole)
    (a3 : Memref sig .tc .vmem S1024x128 .f32) (h3 : a3.IsWhole) (a4 : Memref sig .tc .vmem S2048x1 .f32) (h4 : a4.IsWhole)
    (a5 : Memref sig .tc .vmem S2048x128 .f32) (h5 : a5.IsWhole) (hc0 : ¬cond1_0 i) (hc1 : cond1_1 i)
    (x0 : Vec F S2048x1024 .f32) (x1 : Vec F S1024x128 .f32) (x2 : Vec F S2048x1 .f32) (xo : Vec F S2048x128 .f32) :
    out1_C_3 c i a2 h2 a3 h3 a4 h4 a5 h5 hc0 hc1 x0 x1 x2 xo
      = mulf (addf xo (tile x0 x1)) (broadcastTo S2048x128 x2 broadcasts_S2048x1_S2048x128) := by
  unfold out1_C_3
  rw [View.read_writes_eq_canon _ _ _ (cover1_C_3 c i a2 h2 a3 h3 a4 h4 a5 h5 hc0 hc1 x0 x1 x2 xo)]
  unfold kernelRun1_C
  dsimp only
  sl_unfold_words
  rw [View.canon_cons_unit_zero (S := S2048x128) hz, View.readCov_unit_zero (S := S2048x128) _ hz]
  unfold k1_pay3 k1_pay2 tile
  simp only [View.readAt_eq_ld, h2.read_unread, h3.read_unread, h4.read_unread, h5.read_unread,
    View.ld_unit_zero (S := S2048x1024) hz, View.ld_unit_zero (S := S1024x128) hz, View.ld_unit_zero (S := S2048x128) hz,
    View.ld_unit_zero (S := S2048x1) hz, shapeCast_self]

end Cert.KernelIdeal.Region1

end
-- ==== Proof.Region1Fold.lean ====
/-
  What the second product's output block holds when it is written back, entry by entry.

  At the last contraction tile of row tile i (point 8 i + 7) the block holds, at (p, q), the sum over the eight
  tiles s of the tile products ∑ⱼ a (p, j) · b (j, q) of the blocks of point 8 i + s, times the filter block's entry
  (p, 0): the first tile starts from zero, every later tile adds its product to what the block holds, and the last
  one scales the rows. The running sum is a fold over the run of points 8 i … 8 i + 7.
-/
import proofs.«170778_j55422257988357_2_alg».proof.Proof.Gen.KernelIdeal.Frame
import proofs.«170778_j55422257988357_2_alg».proof.Proof.Region1Cases
import proofs.«170778_j55422257988357_2_alg».proof.Proof.LibPlainDot
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

open scoped BigOperators

namespace Cert.KernelIdeal.Region1

open Cert.KernelIdeal Cert.KernelIdeal.Gen Idealize.ShloMosaic.ValueIdx

/-- One tile's product at (p, q): the sum over the tile's 1024 contraction positions. -/
theorem tile_apply (x0 : Vec Ideal S2048x1024 .f32) (x1 : Vec Ideal S1024x128 .f32) (p : Fin 2048) (q : Fin 128) :
    tile x0 x1 (ix2 p q) = ∑ j : Fin 1024, x0 (ix2 p j) * x1 (ix2 j q) := by
  unfold tile
  exact Cert.PlainDot.matmul_zero_apply dot_S2048x1024_S1024x128_S2048x128_1_0_0_1_n_n rfl rfl rfl rfl rfl rfl none _ _ p q

/-- The filter block broadcast along the columns, at (p, q), is its entry (p, 0). -/
theorem bcast_apply (x2 : Vec Ideal S2048x1 .f32) (p : Fin 2048) (q : Fin 128) :
    broadcastTo S2048x128 x2 broadcasts_S2048x1_S2048x128 (ix2 p q) = x2 (ix2 p 0) :=
  broadcastTo_apply x2 broadcasts_S2048x1_S2048x128 (ix2 p q) (ix2 p 0) fun a => by
    match a with
    | ⟨0, _⟩ => rfl
    | ⟨1, _⟩ => rfl

variable (V : (c : Dev nD) → (b : Ref sig .tc) → Buf (Elt Ideal) ((c : Thread nD τ).loc b)) (c : Dev nD)

/-- Point n's tile product (zero past the grid, where it is never used). -/
def contrib (n : ℕ) : S2048x128.Idx → EReal :=
  fun i => if h : n < cfg1.N then tile (F := Ideal) (iblk1 V c 0 ⟨n, h⟩) (iblk1 V c 1 ⟨n, h⟩) i else 0

/-- What the first tile of a run leaves. -/
def first (n : ℕ) (h : n < cfg1.N) : Vec Ideal S2048x128 .f32 :=
  addf zero (tile (iblk1 V c 0 ⟨n, h⟩) (iblk1 V c 1 ⟨n, h⟩))

/-- What a later tile makes of what the block holds: add its product, and at the last tile scale the rows. -/
def next (n : ℕ) (h : n < cfg1.N) (acc : Vec Ideal S2048x128 .f32) : Vec Ideal S2048x128 .f32 :=
  if n % 8 = 7 then
    mulf (addf acc (tile (iblk1 V c 0 ⟨n, h⟩) (iblk1 V c 1 ⟨n, h⟩)))
      (broadcastTo S2048x128 (iblk1 V c 2 ⟨n, h⟩) broadcasts_S2048x1_S2048x128)
  else addf acc (tile (iblk1 V c 0 ⟨n, h⟩) (iblk1 V c 1 ⟨n, h⟩))

theorem next_last (n : ℕ) (h : n < cfg1.N) (acc : Vec Ideal S2048x128 .f32) (hn : n % 8 = 7) :
    next V c n h acc = mulf (addf acc (tile (iblk1 V c 0 ⟨n, h⟩) (iblk1 V c 1 ⟨n, h⟩)))
      (broadcastTo S2048x128 (iblk1 V c 2 ⟨n, h⟩) broadcasts_S2048x1_S2048x128) := by
  unfold next; rw [if_pos hn]

theorem next_mid (n : ℕ) (h : n < cfg1.N) (acc : Vec Ideal S2048x128 .f32) (hn : ¬ n % 8 = 7) :
    next V c n h acc = addf acc (tile (iblk1 V c 0 ⟨n, h⟩) (iblk1 V c 1 ⟨n, h⟩)) := by
  unfold next; rw [if_neg hn]

theorem outsAt_first (n : ℕ) (h : n < cfg1.N) (h0 : n % 8 = 0) : outsAt1 V c n h = first V c n h := by
  have h1 : ¬ n % 8 = 7 := by omega
  exact (outsAt1_A V c ⟨n, h⟩ h0 h1).trans (out_A (F := Ideal) ..)

theorem outsAt_next (n : ℕ) (h : n + 1 < cfg1.N) (h0 : ¬ (n + 1) % 8 = 0) :
    outsAt1 V c (n + 1) h = next V c (n + 1) h (outsAt1 V c n (Nat.lt_of_succ_lt h)) := by
  unfold next
  by_cases h1 : (n + 1) % 8 = 7
  · rw [if_pos h1, outsAt1_C V c ⟨n + 1, h⟩ h0 h1, out_C]
    rfl
  · rw [if_neg h1, outsAt1_B V c ⟨n + 1, h⟩ h0 h1, out_B]
    rfl

/-- The block at the last tile of row tile k: the eight tile products summed, the rows scaled. -/
theorem outsAt_last (k : ℕ) (h : 8 * k + 7 < cfg1.N) (p : Fin 2048) (q : Fin 128) :
    outsAt1 V c (8 * k + 7) h (ix2 p q)
      = (∑ s ∈ Finset.range 8, contrib V c (8 * k + s) (ix2 p q))
          * (iblk1 V c 2 ⟨8 * k + 7, h⟩ : Vec Ideal S2048x1 .f32) (ix2 p 0) := by
  have hN : cfg1.N = 32 := N_1
  rw [Pipeline.eq_accAt (fun n h => outsAt1 V c n h) 8 (first V c) (next V c) (outsAt_first V c) (outsAt_next V c) k 7
    (by decide) h]
  have e2 : Pipeline.accAt (first V c) (next V c) (8 * k) 7 h
      = next V c (8 * k + 7) h (Pipeline.accAt (first V c) (next V c) (8 * k) 6 (by omega)) := rfl
  rw [e2, next_last V c _ h _ (by omega)]
  rw [mulf_apply, addf_apply, bcast_apply, tile_apply]
  rw [Pipeline.accAt_add_apply (first V c) (next V c) (fun _ => 0) (contrib V c) (8 * k) 6
    (fun hb i => by
      unfold first contrib
      rw [dif_pos hb, addf_apply]
      show Ideal.ofBits .f32 0x00000000#32 + _ = _
      rw [Ideal.ofBits_zero_f32])
    (fun n hn acc i hlt hle => by
      rw [next_mid V c n hn acc (by omega)]
      unfold contrib
      rw [dif_pos hn, addf_apply])
    6 (le_refl _) (by omega) (ix2 p q)]
  rw [Finset.sum_range_succ _ 7, zero_add]
  congr 2
  unfold contrib
  rw [dif_pos h, tile_apply]

end Cert.KernelIdeal.Region1

end
-- ==== Proof.NatIdx.lean ====
/-
  Matrix entries addressed by natural numbers: entry (r, k) of an [R, C] matrix for r < R and k < C, and zero outside.
  A block's entry is then the matrix's entry at "block offset + coordinate inside the block", with no bound to carry
  in the statement, and a sum over a tiled axis can be taken over the naturals below its extent.
-/
import Idealize.ShloMosaic.PureOps.Ideal
import Idealize.ShloMosaic.Lib.ValueIdx

noncomputable section

namespace Cert.NatIdx

open Idealize.ShloMosaic Idealize.ShloMosaic.ValueIdx

variable {R C : Nat}

/-- Entry (r, k) of x where both are in range, zero elsewhere. -/
def at2 (x : (⟨2, ![R, C]⟩ : Shape).Idx → EReal) (r k : ℕ) : EReal :=
  if h : r < R ∧ k < C then x (ix2 ⟨r, h.1⟩ ⟨k, h.2⟩) else 0

theorem at2_of_lt (x : (⟨2, ![R, C]⟩ : Shape).Idx → EReal) {r k : ℕ} (hr : r < R) (hk : k < C) :
    at2 x r k = x (ix2 ⟨r, hr⟩ ⟨k, hk⟩) := dif_pos ⟨hr, hk⟩

theorem at2_val (x : (⟨2, ![R, C]⟩ : Shape).Idx → EReal) (r : Fin R) (k : Fin C) :
    at2 x r.val k.val = x (ix2 r k) := dif_pos ⟨r.isLt, k.isLt⟩

end Cert.NatIdx

end
-- ==== Proof.Region1Blocks.lean ====
/-
  The blocks the second product's grid point t = 8 i + k reads, as entries of the arrays the region finds.

  The left matrix's block (i, k) of [2048, 1024] holds its rows 2048 i + p and columns 1024 k + j; the right matrix's
  block (k, 0) of [1024, 128] its rows 1024 k + j; the filter column's block (i, 0) of [2048, 1] its rows 2048 i + p;
  and the output's block (i, 0) of [2048, 128] covers rows 2048 i + p.
-/
import proofs.«170778_j55422257988357_2_alg».proof.Proof.Gen.KernelIdeal.Frame
import proofs.«170778_j55422257988357_2_alg».proof.Proof.NatIdx
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx Cert.NatIdx

variable (V : (c : Dev nD) → (b : Ref sig .tc) → Buf (Elt Ideal) ((c : Thread nD τ).loc b)) (c : Dev nD)

/-- The block indices of the four windows at point t: row tile t / 8, contraction tile t % 8. -/
theorem idx_facts : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0 :=
  (by decide +kernel : ∀ t : Fin grid1.N, _)

/-- The left matrix's block at point t. -/
theorem blk0_apply (t : Fin cfg1.N) (p : Fin 2048) (j : Fin 1024) :
    (iblk1 V c 0 t : Vec Ideal S2048x1024 .f32) (ix2 p j)
      = at2 (V c main_arg2) (2048 * (t.val / 8) + p.val) (1024 * (t.val % 8) + j.val) := by
  have hN : t.val < 32 := lt_of_lt_of_eq t.isLt (show cfg1.N = 32 from N_1)
  obtain ⟨e0, e1, -⟩ := idx_facts t
  rw [at2_of_lt _ (by omega) (by omega)]
  show V c main_arg2 (((cfg1.win 0).blk t).view.emb (ix2 p j)) = _
  refine congrArg (V c main_arg2) (funext fun a => Fin.ext ?_)
  match a with
  | ⟨0, _⟩ => show win1_0.index t (0 : Fin 2) * 2048 + 1 * p.val = 2048 * (t.val / 8) + p.val; rw [e0]; omega
  | ⟨1, _⟩ => show win1_0.index t (1 : Fin 2) * 1024 + 1 * j.val = 1024 * (t.val % 8) + j.val; rw [e1]; omega

/-- The right matrix's block at point t. -/
theorem blk1_apply (t : Fin cfg1.N) (j : Fin 1024) (q : Fin 128) :
    (iblk1 V c 1 t : Vec Ideal S1024x128 .f32) (ix2 j q) = at2 (V c main_v0) (1024 * (t.val % 8) + j.val) q.val := by
  have hN : t.val < 32 := lt_of_lt_of_eq t.isLt (show cfg1.N = 32 from N_1)
  obtain ⟨-, -, e0, e1, -⟩ := idx_facts t
  rw [at2_of_lt _ (by omega) q.isLt]
  show V c main_v0 (((cfg1.win 1).blk t).view.emb (ix2 j q)) = _
  refine congrArg (V c main_v0) (funext fun a => Fin.ext ?_)
  match a with
  | ⟨0, _⟩ => show win1_1.index t (0 : Fin 2) * 1024 + 1 * j.val = 1024 * (t.val % 8) + j.val; rw [e0]; omega
  | ⟨1, _⟩ => show win1_1.index t (1 : Fin 2) * 128 + 1 * q.val = q.val; rw [e1]; omega

/-- The filter column's block at point t. -/
theorem blk2_apply (t : Fin cfg1.N) (p : Fin 2048) (z : Fin 1) :
    (iblk1 V c 2 t : Vec Ideal S2048x1 .f32) (ix2 p z) = at2 (V c main_v1) (2048 * (t.val / 8) + p.val) 0 := by
  have hN : t.val < 32 := lt_of_lt_of_eq t.isLt (show cfg1.N = 32 from N_1)
  obtain ⟨-, -, -, -, e0, e1, -⟩ := idx_facts t
  rw [at2_of_lt _ (by omega) (by decide)]
  show V c main_v1 (((cfg1.win 2).blk t).view.emb (ix2 p z)) = _
  refine congrArg (V c main_v1) (funext fun a => Fin.ext ?_)
  have hz : z.val = 0 := by omega
  match a with
  | ⟨0, _⟩ => show win1_2.index t (0 : Fin 2) * 2048 + 1 * p.val = 2048 * (t.val / 8) + p.val; rw [e0]; omega
  | ⟨1, _⟩ => show win1_2.index t (1 : Fin 2) * 1 + 1 * z.val = 0; rw [e1]; omega

end Cert.KernelIdeal.Region1

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.Region1.lean ====
/-
  The second product's result array: diag(f) · (A' · T), entry by entry.

  Row r = 2048 i + p of the result lies in the output block of row tile i, written back once, at the last contraction
  tile. There it holds the eight tile sums ∑ⱼ A' (r, 1024 s + j) · T (1024 s + j, q), s = 0 … 7, added up, times
  f (r, 0); the tiles partition the contraction axis, so the eight sums are the one sum over k < 8192. The four
  write-backs cover the array.
-/
import proofs.«170778_j55422257988357_2_alg».proof.Proof.Gen.KernelIdeal.Frame
import proofs.«170778_j55422257988357_2_alg».proof.Proof.Region1Fold
import proofs.«170778_j55422257988357_2_alg».proof.Proof.Region1Blocks
import proofs.«170778_j55422257988357_2_alg».proof.Proof.LibTileSum
import proofs.«170778_j55422257988357_2_alg».proof.Proof.Spec
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

open scoped BigOperators

namespace Cert.KernelIdeal.Region1

open Cert.KernelIdeal Cert.KernelIdeal.Gen Idealize.ShloMosaic.ValueIdx Cert.NatIdx

variable (V : (c : Dev nD) → (b : Ref sig .tc) → Buf (Elt Ideal) ((c : Thread nD τ).loc b)) (c : Dev nD)

/-- The tile product of point 8 k + s at (p, q), over the arrays: row 2048 k + p against the contraction positions
    1024 s + j. -/
theorem contrib_apply (k s : ℕ) (hk : k < 4) (hs : s < 8) (p : Fin 2048) (q : Fin 128) :
    contrib V c (8 * k + s) (ix2 p q)
      = ∑ j : Fin 1024, at2 (V c main_arg2) (2048 * k + p.val) (1024 * s + j.val) * at2 (V c main_v0) (1024 * s + j.val) q.val := by
  have hlt : 8 * k + s < cfg1.N := by rw [show cfg1.N = 32 from N_1]; omega
  unfold contrib
  rw [dif_pos hlt, tile_apply]
  refine Finset.sum_congr rfl fun j _ => ?_
  rw [blk0_apply, blk1_apply]
  show at2 _ (2048 * ((8 * k + s) / 8) + p.val) (1024 * ((8 * k + s) % 8) + j.val) * at2 _ (1024 * ((8 * k + s) % 8) + j.val) q.val = _
  rw [show (8 * k + s) / 8 = k by omega, show (8 * k + s) % 8 = s by omega]

/-- What a write-back writes is the block of diag(f) · (A' · T). -/
theorem flushed_eq (t : Fin cfg1.N) (hf : (cfg1.win 3).flush t = true) :
    (dat1 V c).flushed 3 t = ((cfg1.win 3).blk t).view.read (Elt Ideal)
      (Cert.Spec.scaleRows (Cert.Spec.mm (V c main_arg2) (V c main_v0)) (V c main_v1)) := by
  have h7 : t.val % 8 = 7 := (flush1_3 t).mp hf
  obtain ⟨tv, htv⟩ := t
  have hN : tv < 32 := lt_of_lt_of_eq htv (show cfg1.N = 32 from N_1)
  obtain ⟨k, rfl⟩ : ∃ k, tv = 8 * k + 7 := ⟨tv / 8, by dsimp only at h7; omega⟩
  show (cfg1.win 3).cut (grid1.coords ⟨8 * k + 7, htv⟩) ((dat1 V c).after 3 ⟨8 * k + 7, htv⟩) = _
  rw [after1_3]
  funext y
  obtain ⟨p, q, rfl⟩ : ∃ (p : Fin 2048) (q : Fin 128), y = ix2 p q := ⟨y 0, y 1, eq_ix2 y⟩
  show outsAt1 V c (8 * k + 7) htv (ix2 p q)
    = Cert.Spec.scaleRows (Cert.Spec.mm (V c main_arg2) (V c main_v0)) (V c main_v1)
        (((cfg1.win 3).blk ⟨8 * k + 7, htv⟩).view.emb (ix2 p q))
  have hR : 2048 * k + p.val < 8192 := by omega
  have hemb : ((cfg1.win 3).blk ⟨8 * k + 7, htv⟩).view.emb (ix2 p q) = ix2 (⟨2048 * k + p.val, hR⟩ : Fin 8192) q := by
    obtain ⟨-, -, -, -, -, -, e0, e1⟩ := idx_facts ⟨8 * k + 7, htv⟩
    funext a; apply Fin.ext
    match a with
    | ⟨0, _⟩ =>
      show win1_3.index ⟨8 * k + 7, htv⟩ (0 : Fin 2) * 2048 + 1 * p.val = 2048 * k + p.val
      rw [e0]; dsimp only; omega
    | ⟨1, _⟩ =>
      show win1_3.index ⟨8 * k + 7, htv⟩ (1 : Fin 2) * 128 + 1 * q.val = q.val
      rw [e1]; omega
  rw [hemb, outsAt_last V c k htv p q, Cert.Spec.scaleRows_apply, Cert.Spec.mm_apply, blk2_apply]
  congr 1
  · refine (Finset.sum_congr rfl fun s hs => contrib_apply V c k s (by omega) (Finset.mem_range.mp hs) p q).trans ?_
    refine (Cert.TileSum.sum_tiles 8 1024
      (fun n => at2 (V c main_arg2) (2048 * k + p.val) n * at2 (V c main_v0) n q.val)).trans ?_
    show ∑ r : Fin 8192, at2 (V c main_arg2) (2048 * k + p.val) r.val * at2 (V c main_v0) r.val q.val = _
    refine Finset.sum_congr rfl fun κ _ => ?_
    rw [at2_of_lt _ hR κ.isLt, at2_of_lt _ κ.isLt q.isLt]
  · show at2 (V c main_v1) (2048 * ((8 * k + 7) / 8) + p.val) 0 = _
    rw [show 2048 * ((8 * k + 7) / 8) + p.val = 2048 * k + p.val by omega, at2_of_lt _ hR (by decide)]
    rfl

/-- An index of the result is in point t's output block iff its coordinates are in the block's ranges. -/
theorem mem_blk (t : Fin cfg1.N) (i : S8192x128.Idx) :
    i ∈ ((cfg1.win 3).blk t).view.set ↔ ∀ a : Fin 2, win1_3.index t a * S2048x128.size a ≤ (i a).val
      ∧ (i a).val < win1_3.index t a * S2048x128.size a + S2048x128.size a := by
  show i ∈ ((View.whole main_v2).slice (win1_3.rect t)).set ↔ _
  rw [View.set_slice_whole, Rect.mem_set_unit]
  exact Iff.rfl

/-- Every row lies in the block of its row tile, which the tile's last point writes back. -/
theorem cover (i : S8192x128.Idx) :
    ∃ t : Fin cfg1.N, (cfg1.win 3).flush t = true ∧ i ∈ ((cfg1.win 3).blk t).view.set := by
  have hi0 : (i 0).val < 8192 := (i 0).isLt
  have hi1 : (i 1).val < 128 := (i 1).isLt
  have hlt : 8 * ((i 0).val / 2048) + 7 < cfg1.N := by rw [show cfg1.N = 32 from N_1]; omega
  refine ⟨⟨8 * ((i 0).val / 2048) + 7, hlt⟩, (flush1_3 _).mpr (by dsimp only; omega), ?_⟩
  rw [mem_blk]
  obtain ⟨-, -, -, -, -, -, e0, e1⟩ := idx_facts ⟨8 * ((i 0).val / 2048) + 7, hlt⟩
  intro a
  match a with
  | ⟨0, _⟩ =>
    show win1_3.index ⟨8 * ((i 0).val / 2048) + 7, hlt⟩ (0 : Fin 2) * 2048 ≤ (i 0).val
      ∧ (i 0).val < win1_3.index ⟨8 * ((i 0).val / 2048) + 7, hlt⟩ (0 : Fin 2) * 2048 + 2048
    rw [e0]; dsimp only; omega
  | ⟨1, _⟩ =>
    show win1_3.index ⟨8 * ((i 0).val / 2048) + 7, hlt⟩ (1 : Fin 2) * 128 ≤ (i 1).val
      ∧ (i 1).val < win1_3.index ⟨8 * ((i 0).val / 2048) + 7, hlt⟩ (1 : Fin 2) * 128 + 128
    rw [e1]; omega

/-- The second product's result array after the region: diag(f) · (A' · T) of the arrays the region finds. -/
theorem final : (dat1 V c).arrAt 3 cfg1.N
    = Cert.Spec.scaleRows (Cert.Spec.mm (V c main_arg2) (V c main_v0)) (V c main_v1) :=
  (dat1 V c).arrAt_eq_of_cover 3 _ (flushed_eq V c) (cover)

end Cert.KernelIdeal.Region1

end
-- ==== Proof.Region2Body.lean ====
/-
  What one grid point of the third product leaves in its output block, as a value.

  The body of the last product (the output X = A · Y, A of shape [8192, 8192] cut in [2048, 1024] tiles, Y of shape
  [8192, 128] cut in [1024, 128] tiles) holds a [2048, 128] accumulator block. At the first contraction tile it stores
  the zero block, reads it back and adds the tile product to it; at every other contraction tile it adds the tile
  product to what the block held. Both are the same payload (the accumulator plus the product of the two tiles into a
  zero accumulator) applied to the zero block or to the block's previous contents.
-/
import proofs.«170778_j55422257988357_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Region2

open Cert.KernelIdeal Cert.KernelIdeal.Gen

variable {F : FTy → Type} [FloatOps F]

theorem hz : (![0, 0] : Fin 2 → Nat) = fun _ => 0 := funext fun a => by fin_cases a <;> rfl

/-- A later contraction tile: the block holding `xo` is left at the payload of the two tiles and `xo`. -/
theorem out_B (c : Dev nD) (i : grid2.Coords) (a2 : Memref sig .tc .vmem S2048x1024 .f32) (h2 : a2.IsWhole)
    (a3 : Memref sig .tc .vmem S1024x128 .f32) (h3 : a3.IsWhole) (a4 : Memref sig .tc .vmem S2048x128 .f32) (h4 : a4.IsWhole)
    (hc : ¬cond2_0 i) (x0 : Vec F S2048x1024 .f32) (x1 : Vec F S1024x128 .f32) (xo : Vec F S2048x128 .f32) :
    out2_B_2 c i a2 h2 a3 h3 a4 h4 hc x0 x1 xo = k2_pay2 x0 x1 xo := by
  unfold out2_B_2
  rw [View.read_writes_eq_canon _ _ _ (cover2_B_2 c i a2 h2 a3 h3 a4 h4 hc x0 x1 xo)]
  unfold kernelRun2_B
  dsimp only
  rw [View.canon_unit_zero hz]
  simp only [View.readAt_eq_ld, h2.read_unread, h3.read_unread, h4.read_unread, View.ld_unit_zero (S := S2048x1024) hz,
    View.ld_unit_zero (S := S1024x128) hz, View.ld_unit_zero (S := S2048x128) hz]

/-- The first contraction tile: the block is left at the payload of the two tiles and the zero block, which the body
    has just stored and reads back. -/
theorem out_A (c : Dev nD) (i : grid2.Coords) (a2 : Memref sig .tc .vmem S2048x1024 .f32) (h2 : a2.IsWhole)
    (a3 : Memref sig .tc .vmem S1024x128 .f32) (h3 : a3.IsWhole) (a4 : Memref sig .tc .vmem S2048x128 .f32) (h4 : a4.IsWhole)
    (hc : cond2_0 i) (x0 : Vec F S2048x1024 .f32) (x1 : Vec F S1024x128 .f32) :
    out2_A_2 c i a2 h2 a3 h3 a4 h4 hc x0 x1 = k2_pay2 x0 x1 (k2_pay1 (F := F)) := by
  unfold out2_A_2
  rw [View.read_writes_eq_canon _ _ _ (cover2_A_2 c i a2 h2 a3 h3 a4 h4 hc x0 x1)]
  unfold kernelRun2_A
  dsimp only
  sl_unfold_words
  rw [View.canon_cons_unit_zero (S := S2048x128) hz, View.readCov_unit_zero (S := S2048x128) _ hz]
  simp only [View.readAt_eq_ld, h2.read_unread, h3.read_unread, View.ld_unit_zero (S := S2048x1024) hz,
    View.ld_unit_zero (S := S1024x128) hz]

end Cert.KernelIdeal.Region2

end
-- ==== Proof.Region2Pay.lean ====
/-
  The accumulation step of the third product at an entry, over the extended reals.

  Rounding to the narrower float format is the identity on the extended reals and the product of two tiles into a
  zero accumulator is the plain sum of products over the tile's contraction positions, so the step adds to entry
  (p, q) of the accumulator the sum over the 1024 positions j of the tile of a (p, j) · b (j, q); the block the first
  step starts from is zero at every entry.
-/
import proofs.«170778_j55422257988357_2_alg».proof.Proof.Gen.KernelIdeal.Skeleton
import proofs.«170778_j55422257988357_2_alg».proof.Proof.LibPlainDot
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Region2

open Cert.KernelIdeal Cert.KernelIdeal.Gen

/-- The accumulation step at entry (p, q): the accumulator's entry plus the tile product's. -/
theorem pay2_apply (x0 : Vec Ideal S2048x1024 .f32) (x1 : Vec Ideal S1024x128 .f32) (xo : Vec Ideal S2048x128 .f32)
    (p : Fin 2048) (q : Fin 128) :
    k2_pay2 (F := Ideal) x0 x1 xo (ix2 p q) = xo (ix2 p q) + ∑ j : Fin 1024, x0 (ix2 p j) * x1 (ix2 j q) := by
  unfold k2_pay2
  refine (addf_apply _ _ _).trans ?_
  rw [shapeCast_self]
  refine congrArg (xo (ix2 p q) + ·) ?_
  refine (Cert.PlainDot.matmul_zero_apply dot_S2048x1024_S1024x128_S2048x128_1_0_0_1_n_n rfl rfl rfl rfl rfl rfl none _ _ p q).trans ?_
  refine Finset.sum_congr rfl fun j _ => ?_
  rw [truncf_apply, truncf_apply, shapeCast_self]

/-- The block the first step starts from is zero at every entry. -/
theorem pay1_apply (p : Fin 2048) (q : Fin 128) : k2_pay1 (F := Ideal) (ix2 p q) = 0 := by
  unfold k2_pay1
  exact Ideal.ofBits_zero_f32

end Cert.KernelIdeal.Region2

end
-- ==== Proof.Region2Fold.lean ====
/-
  The accumulator of the third product at the point that writes its block back, at an entry.

  Along one row tile the eight contraction tiles are visited in order: the first resets the block to the zero block
  and adds its tile product, each later one adds its own. So when the eighth has run, entry (p, q) of the block is
  zero plus the sum over the eight tiles s of the sum over the 1024 positions j of the tile of a_s (p, j) · b_s (j, q),
  a_s and b_s being the two operand tiles the s-th of these points reads.
-/
import proofs.«170778_j55422257988357_2_alg».proof.Proof.Region2Body
import proofs.«170778_j55422257988357_2_alg».proof.Proof.Region2Pay

noncomputable section

open scoped BigOperators
open Idealize.ShloMosaic Idealize.ShloMosaic.TcCoe Idealize.SL.Sem Idealize.ShloMosaic.ValueIdx

namespace Cert.KernelIdeal.Region2

open Cert.KernelIdeal Cert.KernelIdeal.Gen

variable (V : (c : Dev nD) → (b : Ref sig .tc) → Buf (Elt Ideal) ((c : Thread nD τ).loc b)) (c : Dev nD)

/-- What the first point of a row tile leaves: the step applied to the zero block. -/
def resetAt (n : ℕ) (h : n < cfg2.N) : Vec Ideal S2048x128 .f32 :=
  k2_pay2 (F := Ideal) (iblk2 V c 0 ⟨n, h⟩) (iblk2 V c 1 ⟨n, h⟩) (k2_pay1 (F := Ideal))

/-- What a later point leaves, from what the point before left. -/
def stepAt (n : ℕ) (h : n < cfg2.N) (acc : Vec Ideal S2048x128 .f32) : Vec Ideal S2048x128 .f32 :=
  k2_pay2 (F := Ideal) (iblk2 V c 0 ⟨n, h⟩) (iblk2 V c 1 ⟨n, h⟩) acc

/-- The block after point t is the fold of the steps over the points of t's row tile up to t. -/
theorem outsAt_fold (t : ℕ) (ht : t < cfg2.N) (h' : 8 * (t / 8) + t % 8 < cfg2.N) :
    outsAt2 V c t ht = Pipeline.accAt (resetAt V c) (stepAt V c) (8 * (t / 8)) (t % 8) h' :=
  Pipeline.eq_accAt_of_mod (outsAt2 V c) 8 (resetAt V c) (stepAt V c)
    (fun n h h0 => (outsAt2_A V c ⟨n, h⟩ h0).trans
      (out_A (F := Ideal) c (grid2.coords ⟨n, h⟩) (ms2_0 ⟨n, h⟩) (hs2_0 ⟨n, h⟩) (ms2_1 ⟨n, h⟩) (hs2_1 ⟨n, h⟩) (ms2_2 ⟨n, h⟩) (hs2_2 ⟨n, h⟩)
        ((hcond2_0 ⟨n, h⟩).mpr h0) (iblk2 V c 0 ⟨n, h⟩) (iblk2 V c 1 ⟨n, h⟩)))
    (fun n h hs => (outsAt2_B V c ⟨n + 1, h⟩ hs).trans
      (out_B (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
        (fun hc => hs ((hcond2_0 ⟨n + 1, h⟩).mp hc)) (iblk2 V c 0 ⟨n + 1, h⟩) (iblk2 V c 1 ⟨n + 1, h⟩)
        (outsAt2 V c n (Nat.lt_of_succ_lt h))))
    (by decide) t ht h'

/-- The left operand's tile at point n, for every natural n (zero past the grid). -/
def tileA (n : ℕ) : Vec Ideal S2048x1024 .f32 := if h : n < cfg2.N then iblk2 V c 0 ⟨n, h⟩ else fun _ => 0

/-- The right operand's tile at point n, for every natural n (zero past the grid). -/
def tileB (n : ℕ) : Vec Ideal S1024x128 .f32 := if h : n < cfg2.N then iblk2 V c 1 ⟨n, h⟩ else fun _ => 0

/-- Entry (p, q) of the product of the two tiles of point n. -/
def tileProd (n : ℕ) (p : Fin 2048) (q : Fin 128) : EReal := ∑ j : Fin 1024, tileA V c n (ix2 p j) * tileB V c n (ix2 j q)

theorem resetAt_apply (n : ℕ) (h : n < cfg2.N) (p : Fin 2048) (q : Fin 128) :
    resetAt V c n h (ix2 p q) = 0 + tileProd V c n p q := by
  unfold resetAt tileProd tileA tileB
  rw [dif_pos h, dif_pos h]
  exact (pay2_apply _ _ _ p q).trans (congrArg (· + _) (pay1_apply p q))

theorem stepAt_apply (n : ℕ) (h : n < cfg2.N) (acc : Vec Ideal S2048x128 .f32) (p : Fin 2048) (q : Fin 128) :
    stepAt V c n h acc (ix2 p q) = acc (ix2 p q) + tileProd V c n p q := by
  unfold stepAt tileProd tileA tileB
  rw [dif_pos h, dif_pos h]
  exact pay2_apply _ _ _ p q

/-- At the eighth point of a row tile, entry (p, q) of the block is zero plus the eight tile products' entries. -/
theorem outsAt_flush (t : ℕ) (ht : t < cfg2.N) (h7 : t % 8 = 7) (p : Fin 2048) (q : Fin 128) :
    outsAt2 V c t ht (ix2 p q) = 0 + ∑ s ∈ Finset.range 8, tileProd V c (8 * (t / 8) + s) p q := by
  have hN : cfg2.N = 32 := N_2
  have h' : 8 * (t / 8) + t % 8 < cfg2.N := by rw [Nat.div_add_mod]; exact ht
  rw [outsAt_fold V c t ht h']
  have key := Pipeline.accAt_add_apply (resetAt V c) (stepAt V c) (fun _ => (0 : EReal))
    (fun n (i : S2048x128.Idx) => tileProd V c n (i 0) (i 1)) (8 * (t / 8)) 7
    (fun h i => by
      obtain ⟨p, q, rfl⟩ : ∃ (p : Fin 2048) (q : Fin 128), i = ix2 p q := ⟨i 0, i 1, eq_ix2 i⟩
      exact resetAt_apply V c _ h p q)
    (fun n h acc i _ _ => by
      obtain ⟨p, q, rfl⟩ : ∃ (p : Fin 2048) (q : Fin 128), i = ix2 p q := ⟨i 0, i 1, eq_ix2 i⟩
      exact stepAt_apply V c n h acc p q)
    (t % 8) (by omega) h' (ix2 p q)
  exact key.trans (by rw [h7])

end Cert.KernelIdeal.Region2

end
-- ==== Proof.Region2Blocks.lean ====
/-
  The tiles the grid points of the third product read, as entries of the two operand arrays.

  Point t of the grid is row tile t / 8 and contraction tile t % 8. The left operand's tile there is rows
  2048 · (t / 8) … and columns 1024 · (t % 8) … of the [8192, 8192] array; the right operand's tile is rows
  1024 · (t % 8) … of the [8192, 128] array; the output's block is rows 2048 · (t / 8) … of the [8192, 128] result.
  The arrays' entries are named through accessors over the naturals (zero outside the array), so that the sums over
  tiles and positions can be re-indexed by plain arithmetic.
-/
import proofs.«170778_j55422257988357_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Region2

open Cert.KernelIdeal Cert.KernelIdeal.Gen

variable (V : (c : Dev nD) → (b : Ref sig .tc) → Buf (Elt Ideal) ((c : Thread nD τ).loc b)) (c : Dev nD)

/-- Entry (r, k) of the left operand array, for naturals r and k (zero outside the array). -/
def getA (r k : ℕ) : EReal :=
  if h : r < 8192 ∧ k < 8192 then (V c main_arg1 : S8192x8192.Idx → EReal) (ix2 ⟨r, h.1⟩ ⟨k, h.2⟩) else 0

/-- Entry (k, q) of the right operand array, for naturals k and q (zero outside the array). -/
def getB (k q : ℕ) : EReal :=
  if h : k < 8192 ∧ q < 128 then (V c main_v2 : S8192x128.Idx → EReal) (ix2 ⟨k, h.1⟩ ⟨q, h.2⟩) else 0

/-- The block indices of the three windows at point t: the row tile is t / 8, the contraction tile t % 8. -/
theorem idx_facts : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

/-- The left operand's tile at point t, at (p, j): row 2048 · (t / 8) + p, column 1024 · (t % 8) + j of the array. -/
theorem blockA_apply (t : Fin cfg2.N) (p : Fin 2048) (j : Fin 1024) :
    (iblk2 V c 0 t : Vec Ideal S2048x1024 .f32) (ix2 p j) = getA V c (2048 * (t.val / 8) + p.val) (1024 * (t.val % 8) + j.val) := by
  have hN : t.val < 32 := lt_of_lt_of_eq t.isLt (show cfg2.N = 32 from N_2)
  obtain ⟨e0, e1, -⟩ := idx_facts t
  have hr : 2048 * (t.val / 8) + p.val < 8192 := by have := p.isLt; omega
  have hk : 1024 * (t.val % 8) + j.val < 8192 := by have := j.isLt; omega
  unfold getA
  rw [dif_pos ⟨hr, hk⟩]
  unfold iblk2
  rw [View.read_apply]
  show (V c main_arg1 : S8192x8192.Idx → EReal) (((cfg2.win 0).blk t).view.emb (ix2 p j)) = (V c main_arg1 : S8192x8192.Idx → EReal) _
  refine congrArg (V c main_arg1 : S8192x8192.Idx → EReal) (funext fun a => Fin.ext ?_)
  match a with
  | ⟨0, _⟩ => show win2_0.index t (0 : Fin 2) * 2048 + 1 * p.val = 2048 * (t.val / 8) + p.val; rw [e0]; omega
  | ⟨1, _⟩ => show win2_0.index t (1 : Fin 2) * 1024 + 1 * j.val = 1024 * (t.val % 8) + j.val; rw [e1]; omega

/-- The right operand's tile at point t, at (j, q): row 1024 · (t % 8) + j, column q of the array. -/
theorem blockB_apply (t : Fin cfg2.N) (j : Fin 1024) (q : Fin 128) :
    (iblk2 V c 1 t : Vec Ideal S1024x128 .f32) (ix2 j q) = getB V c (1024 * (t.val % 8) + j.val) q.val := by
  have hN : t.val < 32 := lt_of_lt_of_eq t.isLt (show cfg2.N = 32 from N_2)
  obtain ⟨-, -, e0, e1, -⟩ := idx_facts t
  have hk : 1024 * (t.val % 8) + j.val < 8192 := by have := j.isLt; omega
  unfold getB
  rw [dif_pos ⟨hk, q.isLt⟩]
  unfold iblk2
  rw [View.read_apply]
  show (V c main_v2 : S8192x128.Idx → EReal) (((cfg2.win 1).blk t).view.emb (ix2 j q)) = (V c main_v2 : S8192x128.Idx → EReal) _
  refine congrArg (V c main_v2 : S8192x128.Idx → EReal) (funext fun a => Fin.ext ?_)
  match a with
  | ⟨0, _⟩ => show win2_1.index t (0 : Fin 2) * 1024 + 1 * j.val = 1024 * (t.val % 8) + j.val; rw [e0]; omega
  | ⟨1, _⟩ => show win2_1.index t (1 : Fin 2) * 128 + 1 * q.val = q.val; rw [e1]; omega

/-- The output's block at point t, at (p, q): row 2048 · (t / 8) + p, column q of the result array. -/
theorem blockO_emb (t : Fin cfg2.N) (p : Fin 2048) (q : Fin 128) (hr : 2048 * (t.val / 8) + p.val < 8192) :
    (((cfg2.win 2).blk t).view.emb (ix2 p q) : S8192x128.Idx) = ix2 ⟨2048 * (t.val / 8) + p.val, hr⟩ q := by
  obtain ⟨-, -, -, -, e0, e1⟩ := idx_facts t
  refine funext fun a => Fin.ext ?_
  match a with
  | ⟨0, _⟩ => show win2_2.index t (0 : Fin 2) * 2048 + 1 * p.val = 2048 * (t.val / 8) + p.val; rw [e0]; omega
  | ⟨1, _⟩ => show win2_2.index t (1 : Fin 2) * 128 + 1 * q.val = q.val; rw [e1]; omega

end Cert.KernelIdeal.Region2

end
-- ==== Proof.Region2.lean ====
/-
  The third product's result array, entry by entry: X = A · Y.

  Entry (r, q) of the result lies in row tile r / 2048, whose block is written back when the eighth contraction tile
  has been added. By then the block's entry is the sum over the eight tiles s and the 1024 positions j of a tile of
  A (r, 1024 · s + j) · Y (1024 · s + j, q), which is the sum over the whole contraction axis k < 8192 of
  A (r, k) · Y (k, q), tile s holding the positions 1024 · s … 1024 · s + 1023. Only commutativity and associativity
  of the extended reals' addition are used. The four row tiles' blocks cover the array.
-/
import proofs.«170778_j55422257988357_2_alg».proof.Proof.Region2Fold
import proofs.«170778_j55422257988357_2_alg».proof.Proof.Region2Blocks
import proofs.«170778_j55422257988357_2_alg».proof.Proof.Spec
import proofs.«170778_j55422257988357_2_alg».proof.Proof.LibTileSum

noncomputable section

open scoped BigOperators
open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen

variable (V : (c : Dev nD) → (b : Ref sig .tc) → Buf (Elt Ideal) ((c : Thread nD τ).loc b)) (c : Dev nD)

/-- The product of the two tiles of contraction tile s of row tile i, at (p, q), through the arrays' entries. -/
theorem tileProd_eq (i s : ℕ) (hi : i < 4) (hs : s < 8) (p : Fin 2048) (q : Fin 128) :
    tileProd V c (8 * i + s) p q
      = ∑ j : Fin 1024, getA V c (2048 * i + p.val) (1024 * s + j.val) * getB V c (1024 * s + j.val) q.val := by
  have hN : cfg2.N = 32 := N_2
  have ht : 8 * i + s < cfg2.N := by omega
  have hd : (8 * i + s) / 8 = i := by omega
  have hm : (8 * i + s) % 8 = s := by omega
  unfold tileProd tileA tileB
  rw [dif_pos ht, dif_pos ht]
  refine Finset.sum_congr rfl fun j _ => ?_
  have eA := blockA_apply V c ⟨8 * i + s, ht⟩ p j
  have eB := blockB_apply V c ⟨8 * i + s, ht⟩ j q
  dsimp only at eA eB
  rw [hd, hm] at eA
  rw [hm] at eB
  exact congrArg₂ (· * ·) eA eB

/-- Entry (r, q) of the product of the two arrays, its contraction axis taken tile by tile. -/
theorem mm_tiles (r : Fin 8192) (q : Fin 128) :
    Cert.Spec.mm (V c main_arg1) (V c main_v2) (ix2 r q)
      = ∑ s ∈ Finset.range 8, ∑ j : Fin 1024, getA V c r.val (1024 * s + j.val) * getB V c (1024 * s + j.val) q.val := by
  rw [Cert.TileSum.sum_tiles 8 1024 (fun k => getA V c r.val k * getB V c k q.val)]
  refine (Cert.Spec.mm_apply _ _ r q).trans ?_
  show ∑ k : Fin 8192, _ = ∑ k : Fin 8192, getA V c r.val k.val * getB V c k.val q.val
  refine Finset.sum_congr rfl fun k _ => ?_
  unfold getA getB
  rw [dif_pos ⟨r.isLt, k.isLt⟩, dif_pos ⟨k.isLt, q.isLt⟩]

/-- What a point that writes its block back writes is its block of the product of the two arrays. -/
theorem flushed_eq (t : Fin cfg2.N) (hf : (cfg2.win 2).flush t = true) :
    (dat2 V c).flushed 2 t = ((cfg2.win 2).blk t).view.read (Elt Ideal) (Cert.Spec.mm (V c main_arg1) (V c main_v2)) := by
  have hN : cfg2.N = 32 := N_2
  have h7 : t.val % 8 = 7 := (flush2_2 t).mp hf
  have hlt : t.val < 32 := lt_of_lt_of_eq t.isLt hN
  show (cfg2.win 2).cut (grid2.coords t) ((dat2 V c).after 2 t) = _
  rw [after2_2]
  funext y
  obtain ⟨p, q, rfl⟩ : ∃ (p : Fin 2048) (q : Fin 128), y = ix2 p q := ⟨y (0 : Fin 2), y (1 : Fin 2), eq_ix2 y⟩
  rw [View.read_apply]
  have hr : 2048 * (t.val / 8) + p.val < 8192 := by have := p.isLt; omega
  show outsAt2 V c t.val t.isLt (ix2 p q) = Cert.Spec.mm (V c main_arg1) (V c main_v2) (((cfg2.win 2).blk t).view.emb (ix2 p q))
  rw [blockO_emb t p q hr, mm_tiles, outsAt_flush V c t.val t.isLt h7 p q, zero_add]
  refine Finset.sum_congr rfl fun s hs => ?_
  have hs8 : s < 8 := Finset.mem_range.mp hs
  exact tileProd_eq V c (t.val / 8) s (by omega) hs8 p q

/-- An index of the result array is in point t's block iff each coordinate is in the block's range on its axis. -/
theorem mem_blk (t : Fin cfg2.N) (i : S8192x128.Idx) :
    i ∈ ((cfg2.win 2).blk t).view.set ↔ ∀ a : Fin 2, win2_2.index t a * S2048x128.size a ≤ (i a).val ∧ (i a).val < win2_2.index t a * S2048x128.size a + S2048x128.size a := by
  show i ∈ ((View.whole main_v3).slice (win2_2.rect t)).set ↔ _
  rw [View.set_slice_whole, Rect.mem_set_unit]
  exact Iff.rfl

/-- Every entry of the result array is in the block of the last point of its row tile. -/
theorem cover (i : S8192x128.Idx) : ∃ t : Fin cfg2.N, (cfg2.win 2).flush t = true ∧ i ∈ ((cfg2.win 2).blk t).view.set := by
  have hN : cfg2.N = 32 := N_2
  have h0 : (i 0).val < 8192 := (i 0).isLt
  have h1 : (i 1).val < 128 := (i 1).isLt
  have ht : 8 * ((i 0).val / 2048) + 7 < cfg2.N := by omega
  refine ⟨⟨8 * ((i 0).val / 2048) + 7, ht⟩, (flush2_2 _).mpr (by show (8 * ((i 0).val / 2048) + 7) % 8 = 7; omega), ?_⟩
  obtain ⟨-, -, -, -, e0, e1⟩ := idx_facts ⟨8 * ((i 0).val / 2048) + 7, ht⟩
  dsimp only at e0
  rw [mem_blk]
  intro a
  match a with
  | ⟨0, _⟩ => show win2_2.index _ (0 : Fin 2) * 2048 ≤ (i 0).val ∧ (i 0).val < win2_2.index _ (0 : Fin 2) * 2048 + 2048; rw [e0]; omega
  | ⟨1, _⟩ => show win2_2.index _ (1 : Fin 2) * 128 ≤ (i 1).val ∧ (i 1).val < win2_2.index _ (1 : Fin 2) * 128 + 128; rw [e1]; omega

/-- The result array after the region is the product of the two operand arrays as the region finds them. -/
theorem final : (dat2 V c).arrAt 2 cfg2.N = Cert.Spec.mm (V c main_arg1) (V c main_v2) :=
  (dat2 V c).arrAt_eq_of_cover 2 _ (flushed_eq V c) (cover)

end Cert.KernelIdeal.Region2

end
-- ==== Proof.KernelRun.lean ====
/-
  The program's run with the result named.

  The run goes through four segments — the first product, the reshape of the filter, the scaled second product, the third
  product — and ends with every unscoped buffer holding what the last boundary's contents say: the five argument arrays
  as launched (no segment writes one) and the result buffer at what the third region's write-backs left in it.
-/
import proofs.«170778_j55422257988357_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of the program terminates, nothing faulting, and in
    every final state the result buffer holds the last boundary's contents at it — what the third region's write-backs
    left — and the five argument arrays are as launched. -/
theorem run_named : θ_run defs (onTc (τ := τ) (main (F := F))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v3 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Whole

end
-- ==== Proof.Chain.lean ====
/-
  The result buffer through the three regions.

  The first region leaves feat · w in its output; the one host operation between the regions reshapes the filter [8192]
  into the column [8192, 1] and writes nothing else; the second region leaves diag(filt) · (winv · (feat · w)); the third
  leaves wav · (diag(filt) · (winv · (feat · w))) in the result buffer. Each region reads its operands as the segment
  before left them, and no segment writes an argument array, so every operand walks back to the launch memory and the
  result buffer ends holding the specification's function of the five argument arrays.
-/
import proofs.«170778_j55422257988357_2_alg».proof.Proof.Gen.KernelIdeal.Frame
import proofs.«170778_j55422257988357_2_alg».proof.Proof.Spec
import proofs.«170778_j55422257988357_2_alg».proof.Proof.Region0
import proofs.«170778_j55422257988357_2_alg».proof.Proof.Region1
import proofs.«170778_j55422257988357_2_alg».proof.Proof.Region2
import proofs.«170778_j55422257988357_2_alg».proof.Proof.KernelRun
import Idealize.ShloMosaic.Lib.Pipeline.Value
import Idealize.ShloMosaic.Lib.ValueIdx

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)

/-- A vector [a] cast to the column [a, 1] reads, at (i, u), the vector at i. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (ρ : Dev nD → PrngReg) (c : Dev nD)

/-! ## The one host operation: the filter as a column -/

/-- The reshape writes the column buffer only: any other buffer is after it as the first region left it. -/
theorem W2_of_ne (b : Ref sig .tc) (hb : b ≠ main_v1) :
    W2 m ρ c (Proc.devRef .tc b) = W1 m ρ c (Proc.devRef .tc b) := by
  show StableHlo.after hostOps1 (W1 m ρ c) (Proc.devRef .tc b) = _
  simp only [hostOps1, StableHlo.after_cons, StableHlo.after_nil]
  rw [StableHlo.reshape_result_ne]; exact hb

/-- The column buffer after the reshape is the filter vector, as the first region left it, cast to [8192, 1]. -/
theorem W2_main_v1 : (W2 m ρ c (Proc.devRef .tc main_v1) : S8192x1.Idx → EReal)
    = shapeCast S8192x1 (W1 m ρ c (Proc.devRef .tc main_arg4) : S8192.Idx → EReal) shapeCasts_S8192_S8192x1 := by
  show StableHlo.after hostOps1 (W1 m ρ c) (Proc.devRef .tc main_v1) = _
  after_results
  rfl

/-- The column buffer after the reshape is the filter as launched, as a column. -/
theorem W2_column : W2 m ρ c (Proc.devRef .tc main_v1) = Cert.Spec.col (m ((c.tc : Thread nD τ).loc main_arg4)) := by
  funext i
  obtain ⟨r, z, rfl⟩ : ∃ (r : Fin 8192) (z : Fin 1), i = ix2 r z := ⟨i 0, i 1, eq_ix2 i⟩
  rw [W2_main_v1, W1_of_ne m ρ c main_arg4 (by decide)]
  exact shapeCast_column_apply _ _ r z

/-! ## The regions' operands, walked back to the launch memory -/

/-- The first region leaves feat · w. -/
theorem W1_main_v0 : W1 m ρ c (Proc.devRef .tc main_v0)
    = Cert.Spec.mm (m ((c.tc : Thread nD τ).loc main_arg0)) (m ((c.tc : Thread nD τ).loc main_arg3)) :=
  (W1_arr m ρ c 2).trans (Cert.KernelIdeal.Region0.final (V0 m ρ) c)

/-- The second region reads winv as launched. -/
theorem W2_main_arg2 : W2 m ρ c (Proc.devRef .tc main_arg2) = m ((c.tc : Thread nD τ).loc main_arg2) :=
  (W2_of_ne m ρ c main_arg2 (by decide)).trans (W1_of_ne m ρ c main_arg2 (by decide))

/-- The second region leaves diag(filt) · (winv · (feat · w)). -/
theorem W3_main_v2 : W3 m ρ c (Proc.devRef .tc main_v2)
    = Cert.Spec.scaleRows (Cert.Spec.mm (m ((c.tc : Thread nD τ).loc main_arg2))
        (Cert.Spec.mm (m ((c.tc : Thread nD τ).loc main_arg0)) (m ((c.tc : Thread nD τ).loc main_arg3))))
      (Cert.Spec.col (m ((c.tc : Thread nD τ).loc main_arg4))) := by
  refine ((W3_arr m ρ c 3).trans (Cert.KernelIdeal.Region1.final (V2 m ρ) c)).trans ?_
  show Cert.Spec.scaleRows (Cert.Spec.mm (W2 m ρ c (Proc.devRef .tc main_arg2)) (W2 m ρ c (Proc.devRef .tc main_v0)))
    (W2 m ρ c (Proc.devRef .tc main_v1)) = _
  rw [W2_main_arg2, W2_of_ne m ρ c main_v0 (by decide), W1_main_v0, W2_column]

/-- The third region reads wav as launched. -/
theorem W3_main_arg1 : W3 m ρ c (Proc.devRef .tc main_arg1) = m ((c.tc : Thread nD τ).loc main_arg1) :=
  (W3_of_ne m ρ c main_arg1 (by decide)).trans
    ((W2_of_ne m ρ c main_arg1 (by decide)).trans (W1_of_ne m ρ c main_arg1 (by decide)))

/-- The result buffer ends holding wav · (diag(filt) · (winv · (feat · w))) of the arrays as launched. -/
theorem W4_result (m : (ℓ : Loc nD τ sig) → Buf (Elt Ideal) ℓ) (ρ : Dev nD → PrngReg) (c : Dev nD) :
    W4 m ρ c (Proc.devRef .tc main_v3)
      = Cert.Spec.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  refine ((W4_arr m ρ c 2).trans (Cert.KernelIdeal.Region2.final (V3 m ρ) c)).trans ?_
  show Cert.Spec.mm (W3 m ρ c (Proc.devRef .tc main_arg1)) (W3 m ρ c (Proc.devRef .tc main_v2)) = _
  rw [W3_main_arg1, W3_main_v2]
  rfl

/-- The run, read: the result buffer at the specification's function of the arrays as launched, the five arguments
    unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v3)
        = Cert.Spec.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (W4_result m ρ c), (h c).2⟩) (run_named m ρ)

end Cert.KernelIdeal.Whole

end
-- ==== Proof.RefValue.lean ====
/-
  The reference program computes the specification: over the extended reals each of its three matrix products is the
  sum over the contraction axis of the products of the operands' entries, its two broadcasts read the filter vector at
  the row, and its multiplication is entrywise, so its result at (r, q) is the entry (r, q) of
  wav · (diag(filt) · (winv · (feat · w))).
-/
import proofs.«170778_j55422257988357_2_alg».proof.Proof.Gen.ReferenceIdeal.Read
import proofs.«170778_j55422257988357_2_alg».proof.Proof.Spec

noncomputable section

open scoped BigOperators

namespace Cert.RefValue

open Cert.ReferenceIdeal Cert.ReferenceIdeal.Read Idealize.ShloMosaic Idealize.ShloMosaic.ValueIdx

variable (x0 : (⟨S8192x256, .f32⟩ : BufTy).Contents (Elt Ideal)) (x1 x2 : (⟨S8192x8192, .f32⟩ : BufTy).Contents (Elt Ideal))
  (x3 : (⟨S256x128, .f32⟩ : BufTy).Contents (Elt Ideal)) (x4 : (⟨S8192, .f32⟩ : BufTy).Contents (Elt Ideal))

/-! ## The operands' indices

Entry (r, q) of a product reads the left operand at (r, k) and the right operand at (k, q); the filter, broadcast
along the columns, is read at the row. -/

theorem lidx0 (r : Fin 8192) (q : Fin 128) (k : Fin 256) : lidx_main_v0 (ix2 r q) k = ix2 r k :=
  funext fun a => Fin.ext (by match a with | ⟨0, _⟩ => rfl | ⟨1, _⟩ => rfl)

theorem ridx0 (r : Fin 8192) (q : Fin 128) (k : Fin 256) : ridx_main_v0 (ix2 r q) k = ix2 k q :=
  funext fun a => Fin.ext (by match a with | ⟨0, _⟩ => rfl | ⟨1, _⟩ => rfl)

theorem lidx1 (r : Fin 8192) (q : Fin 128) (k : Fin 8192) : lidx_main_v1 (ix2 r q) k = ix2 r k :=
  funext fun a => Fin.ext (by match a with | ⟨0, _⟩ => rfl | ⟨1, _⟩ => rfl)

theorem ridx1 (r : Fin 8192) (q : Fin 128) (k : Fin 8192) : ridx_main_v1 (ix2 r q) k = ix2 k q :=
  funext fun a => Fin.ext (by match a with | ⟨0, _⟩ => rfl | ⟨1, _⟩ => rfl)

theorem lidx5 (r : Fin 8192) (q : Fin 128) (k : Fin 8192) : lidx_main_v5 (ix2 r q) k = ix2 r k :=
  funext fun a => Fin.ext (by match a with | ⟨0, _⟩ => rfl | ⟨1, _⟩ => rfl)

theorem ridx5 (r : Fin 8192) (q : Fin 128) (k : Fin 8192) : ridx_main_v5 (ix2 r q) k = ix2 k q :=
  funext fun a => Fin.ext (by match a with | ⟨0, _⟩ => rfl | ⟨1, _⟩ => rfl)

theorem idx3 (r : Fin 8192) (q : Fin 128) : idx_main_v3 (ix2 r q) = ix2 r (0 : Fin 1) :=
  funext fun a => Fin.ext (by match a with | ⟨0, _⟩ => rfl | ⟨1, _⟩ => rfl)

theorem idx2 (r : Fin 8192) (z : Fin 1) : idx_main_v2 (ix2 r z) = ix1 r :=
  funext fun a => Fin.ext (by match a with | ⟨0, _⟩ => rfl)

/-! ## The stages -/

/-- The first product is feat · w. -/
theorem v0_eq : val_main_v0 (F := Ideal) x0 x3 = Cert.Spec.mm x0 x3 := by
  funext i
  obtain ⟨r, q, rfl⟩ : ∃ (r : Fin 8192) (q : Fin 128), i = ix2 r q := ⟨i 0, i 1, eq_ix2 i⟩
  rw [val_main_v0_apply]
  show _ = ∑ k : Fin 256, x0 (ix2 r k) * x3 (ix2 k q)
  exact Finset.sum_congr rfl fun k _ => by rw [lidx0, ridx0]

/-- The second product is winv · (feat · w). -/
theorem v1_eq : val_main_v1 (F := Ideal) x0 x2 x3 = Cert.Spec.mm x2 (Cert.Spec.mm x0 x3) := by
  funext i
  obtain ⟨r, q, rfl⟩ : ∃ (r : Fin 8192) (q : Fin 128), i = ix2 r q := ⟨i 0, i 1, eq_ix2 i⟩
  rw [val_main_v1_apply, v0_eq]
  show _ = ∑ k : Fin 8192, x2 (ix2 r k) * Cert.Spec.mm x0 x3 (ix2 k q)
  exact Finset.sum_congr rfl fun k _ => by rw [lidx1, ridx1]

/-- The broadcast filter at (r, q) is the filter at r. -/
theorem v3_apply (r : Fin 8192) (q : Fin 128) : val_main_v3 (F := Ideal) x4 (ix2 r q) = x4 (ix1 r) := by
  rw [val_main_v3_apply, idx3, val_main_v2_apply, idx2]

/-- The scaled product is diag(filt) · (winv · (feat · w)). -/
theorem v4_eq : val_main_v4 (F := Ideal) x0 x2 x3 x4
    = Cert.Spec.scaleRows (Cert.Spec.mm x2 (Cert.Spec.mm x0 x3)) (Cert.Spec.col x4) := by
  funext i
  obtain ⟨r, q, rfl⟩ : ∃ (r : Fin 8192) (q : Fin 128), i = ix2 r q := ⟨i 0, i 1, eq_ix2 i⟩
  rw [val_main_v4_apply, v1_eq, v3_apply]
  rfl

/-- The reference's result is the specification. -/
theorem result_eq (x0 : (⟨S8192x256, .f32⟩ : BufTy).Contents (Elt Ideal)) (x1 x2 : (⟨S8192x8192, .f32⟩ : BufTy).Contents (Elt Ideal))
    (x3 : (⟨S256x128, .f32⟩ : BufTy).Contents (Elt Ideal)) (x4 : (⟨S8192, .f32⟩ : BufTy).Contents (Elt Ideal)) :
    val_main_v5 (F := Ideal) x0 x1 x2 x3 x4 = Cert.Spec.result x0 x1 x2 x3 x4 := by
  funext i
  obtain ⟨r, q, rfl⟩ : ∃ (r : Fin 8192) (q : Fin 128), i = ix2 r q := ⟨i 0, i 1, eq_ix2 i⟩
  rw [val_main_v5_apply, v4_eq]
  show _ = ∑ k : Fin 8192, x1 (ix2 r k)
    * Cert.Spec.scaleRows (Cert.Spec.mm x2 (Cert.Spec.mm x0 x3)) (Cert.Spec.col x4) (ix2 k q)
  exact Finset.sum_congr rfl fun k _ => by rw [lidx5, ridx5]

end Cert.RefValue

end
-- ==== Proof.lean ====
/-
  The kernel computes out = A · (diag(f) · (A' · (X · W))) for X [8192, 256], W [256, 128], the two wavelet matrices
  A, A' [8192, 8192] and the filter f [8192], in three tiled matrix products: X · W by row tiles of 1024; A' · T by
  row tiles of 2048 and contraction tiles of 1024, the output block zeroed at the first contraction tile, each tile's
  product added to it, and its rows scaled by f at the last; A · S the same way without the scaling. The reference
  is the same expression as three whole products and one row scaling.

  Over the extended reals a change of float format is the identity and a product into a zero accumulator is the plain
  sum of products, so each tiled product is the whole one: the eight tile sums over k = 1024 s + j add up to the sum
  over k < 8192, which needs only that addition is commutative and associative (no finiteness of the inputs is used).
  Each region's result array is read off its write-backs (Region0, Region1, Region2), the three are chained through
  the buffers between the regions (Chain), and the reference's operations are read at an index as the same sums
  (RefValue); both sides are the one function Cert.Spec.result of the argument arrays.
-/
import proofs.«170778_j55422257988357_2_alg».proof.Defs
import proofs.«170778_j55422257988357_2_alg».proof.Proof.Gen.Kernel
import proofs.«170778_j55422257988357_2_alg».proof.Proof.Gen.Kernel.Frame
import proofs.«170778_j55422257988357_2_alg».proof.Proof.Gen.KernelIdeal
import proofs.«170778_j55422257988357_2_alg».proof.Proof.Gen.KernelIdeal.Frame
import proofs.«170778_j55422257988357_2_alg».proof.Proof.Gen.ReferenceIdeal
import proofs.«170778_j55422257988357_2_alg».proof.Proof.Gen.Pre_finite_inputs
import proofs.«170778_j55422257988357_2_alg».proof.Proof.Gen.ReferenceIdeal.Run
import proofs.«170778_j55422257988357_2_alg».proof.Proof.Gen.ReferenceIdeal.Read
import proofs.«170778_j55422257988357_2_alg».proof.Proof.Chain
import proofs.«170778_j55422257988357_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs end with A · (diag(f) · (A' · (X · W))) of them. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.RefValue.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
